-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S131072x256 .f32) (main_arg1 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S131072x256 : Shape := ⟨2, ![131072, 256]⟩
abbrev S256x256 : Shape := ⟨2, ![256, 256]⟩
abbrev S8192x256 : Shape := ⟨2, ![8192, 256]⟩
abbrev S8192 : Shape := ⟨1, ![8192]⟩
abbrev S8192x1 : Shape := ⟨2, ![8192, 1]⟩

abbrev nBuf : Space → Nat
  | .hbm => 3
  | .vmem => 5
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S131072x256, .f32⟩
  | .local _ .vmem, ⟨0, _⟩ => ⟨S8192x256, .f32⟩
  | .local _ .vmem, ⟨1, _⟩ => ⟨S8192x256, .f32⟩
  | .local _ .vmem, ⟨2, _⟩ => ⟨S256x256, .f32⟩
  | .local _ .vmem, ⟨3, _⟩ => ⟨S8192x256, .f32⟩
  | .local _ .vmem, ⟨4, _⟩ => ⟨S8192x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x256_S256x256_0_0 : ∀ a, (![0, 0] : Fin 2 → Nat) a + S256x256.size a ≤ S256x256.size a
  h_S256x256 : 0 < S256x256.numel
  natLt_1_32 : 1 < 32
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  shapeCasts_S8192_S8192x1 : S8192.ShapeCasts S8192x1
  broadcasts_S8192x1_S8192x256 : S8192x1.Broadcasts S8192x256
  dot_S8192x256_S256x256_S8192x256_1_1_0_0_n_n_wf : DotDims.WF S8192x256 S256x256 S8192x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S131072x256.size a
  hwx0_2 : ∀ i : grid0.Coords, EltTy.bits .f32 = 32 ∨ (Rect.block (s := S131072x256) S8192x256.size (cc0_transform_2 i) (hinb0_2 i)).WholeWords (EltTy.packing .f32)

variable [Facts₀]

def dot_S8192x256_S256x256_S8192x256_1_1_0_0_n_n : DotDims S8192x256 S256x256 S8192x256 where
  lhsContracting := [1]
  rhsContracting := [1]
  lhsNonContracting := [0]
  rhsNonContracting := [0]
  lhsBatch := []
  rhsBatch := []
  wf := dot_S8192x256_S256x256_S8192x256_1_1_0_0_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S_ : Shape := ⟨0, ![]⟩
abbrev S131072 : Shape := ⟨1, ![131072]⟩
abbrev S131072x1 : Shape := ⟨2, ![131072, 1]⟩

abbrev nBuf : Space → Nat
  | .hbm => 15
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S_, .f32⟩
  | .hbm, ⟨3, _⟩ => ⟨S256x256, .f32⟩
  | .hbm, ⟨4, _⟩ => ⟨S256x256, .i1⟩
  | .hbm, ⟨5, _⟩ => ⟨S256x256, .f32⟩
  | .hbm, ⟨6, _⟩ => ⟨S131072x256, .f32⟩
  | .hbm, ⟨7, _⟩ => ⟨S_, .f32⟩
  | .hbm, ⟨8, _⟩ => ⟨S131072, .f32⟩
  | .hbm, ⟨9, _⟩ => ⟨S131072x1, .f32⟩
  | .hbm, ⟨10, _⟩ => ⟨S_, .f32⟩
  | .hbm, ⟨11, _⟩ => ⟨S131072x1, .f32⟩
  | .hbm, ⟨12, _⟩ => ⟨S131072x1, .f32⟩
  | .hbm, ⟨13, _⟩ => ⟨S131072x256, .f32⟩
  | .hbm, ⟨14, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  reducesTo_S131072x256_S131072_d1 : S131072x256.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  dot_S131072x256_S256x256_S131072x256_1_1_0_0_n_n_wf : DotDims.WF S131072x256 S256x256 S131072x256 [1] [1] [0] [0] [] []

variable [Facts₀]

def dot_S131072x256_S256x256_S131072x256_1_1_0_0_n_n : DotDims S131072x256 S256x256 S131072x256 where
  lhsContracting := [1]
  rhsContracting := [1]
  lhsNonContracting := [0]
  rhsNonContracting := [0]
  lhsBatch := []
  rhsBatch := []
  wf := dot_S131072x256_S256x256_S131072x256_1_1_0_0_n_n_wf

class Facts : Prop extends Facts₀ where

variable [Facts]
-- ==== Proof.RowCentred.lean ====
/-
  The function both programs compute, one output row from one input row.

  A weight entry counts as `1` when it is strictly above the threshold (the binary32 word `0x3F4CCCCD`, the float
  nearest to 0.8) and as `0` otherwise.  A row `x` of 256 numbers is sent to the 256 numbers
  `y o = ∑ k, x k * [w o k > threshold]`, and the result is that row with its mean taken off:
  `y o - (∑ o', y o') / 256`.  Everything is read on the extended reals; the divisor is the binary32 word
  `0x43800000`, left as a word because the same word stands on both sides and is never evaluated.
-/
import Idealize.ShloMosaic.PureOps.Ideal
import Idealize.ShloMosaic.PureOps.Ideal.Laws
import Idealize.ShloMosaic.Lib.ValueIdx

noncomputable section

namespace Cert.RowCentred

open Idealize.ShloMosaic Idealize.ShloMosaic.ValueIdx

/-- `1` where `v` is strictly above the threshold, `0` elsewhere: the comparison's one-bit answer read as a number. -/
def above (v : EReal) : EReal :=
  (((Ideal.cmp .ogt v (Ideal.ofBits .f32 0x3F4CCCCD#32)).toNat : ℝ) : EReal)

/-- Entry `o` of the thresholded weight applied to the row `xr`: the sum over the 256 inputs of the input times the
    indicator of weight `(o, k)`. -/
def lin (xr : Fin 256 → EReal) (w : (⟨2, ![256, 256]⟩ : Shape).Idx → EReal) (o : Fin 256) : EReal :=
  ∑ k : Fin 256, xr k * above (w (ix2 o k))

/-- Entry `o` of the row with its mean removed: the entry minus the quotient of the row's total by 256. -/
def centred (xr : Fin 256 → EReal) (w : (⟨2, ![256, 256]⟩ : Shape).Idx → EReal) (o : Fin 256) : EReal :=
  lin xr w o - Ideal.div (∑ o' : Fin 256, lin xr w o') (Ideal.ofBits .f32 0x43800000#32)

/-- The whole result: row `b` of the output is the centred image of row `b` of `x`. -/
def whole (x : (⟨2, ![131072, 256]⟩ : Shape).Idx → EReal) (w : (⟨2, ![256, 256]⟩ : Shape).Idx → EReal) :
    (⟨2, ![131072, 256]⟩ : Shape).Idx → EReal :=
  fun i => centred (fun k => x (ix2 (i 0) k)) w (i 1)

theorem whole_apply (x : (⟨2, ![131072, 256]⟩ : Shape).Idx → EReal) (w : (⟨2, ![256, 256]⟩ : Shape).Idx → EReal)
    (b : Fin 131072) (o : Fin 256) : whole x w (ix2 b o) = centred (fun k => x (ix2 b k)) w o := rfl

/-- `centred` of equal rows, weights and positions. -/
theorem centred_congr {r r' : Fin 256 → EReal} {w w' : (⟨2, ![256, 256]⟩ : Shape).Idx → EReal} {o o' : Fin 256}
    (hr : r = r') (hw : w = w') (ho : o = o') : centred r w o = centred r' w' o' := by
  subst hr hw ho; rfl

/-- A one-bit word widened with zeros to 32 bits and then read as a SIGNED integer is the bit itself, `0` or `1`:
    the widened word's top bit is clear, so the signed and the unsigned readings agree. -/
theorem toInt_setWidth_one (b : BitVec 1) :
    ((((b.setWidth 32).toInt : ℤ) : ℝ) : EReal) = (((b.toNat : ℕ) : ℝ) : EReal) := by
  have h : (b.setWidth 32).toInt = (b.toNat : ℤ) := by
    rcases BitVec.eq_zero_or_eq_one b with h | h <;> subst h <;> decide
  rw [h, Int.cast_natCast]

end Cert.RowCentred

end
-- ==== Proof.BlockRows.lean ====
/-
  What the kernel body stores, read at an entry of the block.

  The body loads the whole 256 × 256 weight and one block of 8192 rows of `x`, and stores one value: the block's
  matrix product with the thresholded weight, minus each row's mean.  At entry `(p, q)` of the block that value is
  the row-centred thresholded linear map of row `p` of the loaded block at position `q`:
    * the thresholded weight is the comparison's one-bit answer, widened to 32 bits and read as a signed integer,
      which is the bit itself;
    * the matrix product into a zero accumulator contracts the second axis of both operands, so its `(p, q)` entry
      is `∑ k, block (p, k) * indicator (q, k)`;
    * the reduction over the second axis at row `p` is `∑ k, product (p, k)`;
    * recasting the 8192 row totals as a column, dividing by the splat of 256, and spreading the column back over
      the 256 positions of each row reads the quotient of row `p` at every `(p, q)`.
-/
import proofs.«161540_j66194035966310_2_alg».proof.Proof.Gen.KernelIdeal.Skeleton
import proofs.«161540_j66194035966310_2_alg».proof.Proof.RowCentred
import Idealize.ShloMosaic.Lib.Pipeline.Value
import Idealize.ShloMosaic.Lib.ValueIdx
import Idealize.ShloMosaic.PureOps.Ideal.Laws

noncomputable section

namespace Cert.KernelIdeal.Rows

open Cert.KernelIdeal Cert.KernelIdeal.Gen
open Idealize.ShloMosaic Idealize.ShloMosaic.ValueIdx

/-! ## The thresholded weight -/

/-- An entry of the thresholded weight as the body computes it — compare, widen the bit, convert the signed
    integer — is `1` where the weight is above the threshold and `0` elsewhere. -/
theorem indicator_apply (wv : FVec Ideal S256x256 .f32) (i : S256x256.Idx) :
    (sitofp .f32 (extui 32 (cmpf .ogt wv (broadcast S256x256 (Scalar.ofBits (F := Ideal) .f32 0x3F4CCCCD#32))) natLt_1_32)
      : FVec Ideal S256x256 .f32) i = Cert.RowCentred.above (wv i) := by
  show ((((((Ideal.cmp .ogt (wv i) (Ideal.ofBits .f32 0x3F4CCCCD#32)).setWidth 32).toInt : ℤ) : ℝ)) : EReal) = _
  unfold Cert.RowCentred.above
  rw [Cert.RowCentred.toInt_setWidth_one]

/-! ## The matrix product at an entry -/

/-- The product's left operand index keeps the output's row. -/
theorem lhs_row (i : S8192x256.Idx) (κ : dot_S8192x256_S256x256_S8192x256_1_1_0_0_n_n.contr.Idx) :
    (dot_S8192x256_S256x256_S8192x256_1_1_0_0_n_n.lhsIdx i κ 0).val = (i 0).val := by
  unfold DotDims.lhsIdx
  rw [dif_neg (show ¬(0 : Fin S8192x256.rank) ∈ dot_S8192x256_S256x256_S8192x256_1_1_0_0_n_n.lhsBatch by decide),
    dif_pos (show (0 : Fin S8192x256.rank) ∈ dot_S8192x256_S256x256_S8192x256_1_1_0_0_n_n.lhsNonContracting by decide)]
  rfl

/-- The product's right operand index takes the output's column as its row. -/
theorem rhs_row (i : S8192x256.Idx) (κ : dot_S8192x256_S256x256_S8192x256_1_1_0_0_n_n.contr.Idx) :
    (dot_S8192x256_S256x256_S8192x256_1_1_0_0_n_n.rhsIdx i κ 0).val = (i 1).val := by
  unfold DotDims.rhsIdx
  rw [dif_neg (show ¬(0 : Fin S256x256.rank) ∈ dot_S8192x256_S256x256_S8192x256_1_1_0_0_n_n.rhsBatch by decide),
    dif_pos (show (0 : Fin S256x256.rank) ∈ dot_S8192x256_S256x256_S8192x256_1_1_0_0_n_n.rhsNonContracting by decide)]
  rfl

/-- Entry `(p, q)` of the product of an 8192 × 256 block with a 256 × 256 matrix, contracted over the second axis of
    both and accumulated into zero: the sum over `k` of block `(p, k)` times matrix `(q, k)`. -/
theorem product_apply (xv : FVec Ideal S8192x256 .f32) (g : FVec Ideal S256x256 .f32) (p : Fin 8192) (q : Fin 256) :
    matmul dot_S8192x256_S256x256_S8192x256_1_1_0_0_n_n none xv g (constant (F := Ideal) S8192x256 .f32 0x00000000#32) (ix2 p q)
      = ∑ k : Fin 256, xv (ix2 p k) * g (ix2 q k) := by
  show FloatOps.matmul dot_S8192x256_S256x256_S8192x256_1_1_0_0_n_n none xv g (constant (F := Ideal) S8192x256 .f32 0x00000000#32) (ix2 p q) = _
  rw [Ideal.matmul_constant_zero_apply,
    ← Equiv.sum_comp (contrEquiv1 dot_S8192x256_S256x256_S8192x256_1_1_0_0_n_n 256 rfl rfl).symm]
  refine Finset.sum_congr rfl fun k _ => ?_
  have hk := contrEquiv1_symm_val dot_S8192x256_S256x256_S8192x256_1_1_0_0_n_n 256 rfl rfl k
  have el : dot_S8192x256_S256x256_S8192x256_1_1_0_0_n_n.lhsIdx (ix2 p q)
      ((contrEquiv1 dot_S8192x256_S256x256_S8192x256_1_1_0_0_n_n 256 rfl rfl).symm k) = ix2 p k :=
    funext fun a => Fin.ext (by
      match a with
      | ⟨0, _⟩ => exact lhs_row _ _
      | ⟨1, _⟩ => exact (dot_S8192x256_S256x256_S8192x256_1_1_0_0_n_n.lhsIdx_val_of_single rfl _ _).trans hk)
  have er : dot_S8192x256_S256x256_S8192x256_1_1_0_0_n_n.rhsIdx (ix2 p q)
      ((contrEquiv1 dot_S8192x256_S256x256_S8192x256_1_1_0_0_n_n 256 rfl rfl).symm k) = ix2 q k :=
    funext fun a => Fin.ext (by
      match a with
      | ⟨0, _⟩ => exact rhs_row _ _
      | ⟨1, _⟩ => exact (dot_S8192x256_S256x256_S8192x256_1_1_0_0_n_n.rhsIdx_val_of_single rfl _ _).trans hk)
  rw [el, er]

/-! ## The row totals, as a column, spread back over the rows -/

/-- The sum over the second axis of an 8192 × 256 block, at row `p`: the sum of that row's 256 entries. -/
theorem rowsum_apply (y : FVec Ideal S8192x256 .f32) (p : Fin 8192) :
    multiReduction .add [1] S8192 y 0x00000000#32 reduces_S8192x256_S8192 (.inl rfl) rfl (ix1 p)
      = ∑ k : Fin 256, y (ix2 p k) :=
  (Ideal.multiReduction_add_single y 0x00000000#32 reduces_S8192x256_S8192 (.inl rfl) rfl (ix1 p)).trans
    (Finset.sum_congr rfl fun k _ => congrArg y (funext fun a => Fin.ext (by
      match a with
      | ⟨0, _⟩ => rfl
      | ⟨1, _⟩ => rfl)))

/-- 8192 numbers recast as an 8192 × 1 column: entry `(p, u)` is number `p`. -/
theorem column_apply {α : Type} (v : S8192.Idx → α) (p : Fin 8192) (u : Fin 1) :
    shapeCast S8192x1 v shapeCasts_S8192_S8192x1 (ix2 p u) = v (ix1 p) :=
  shapeCast_apply v shapeCasts_S8192_S8192x1 _ _ (by
    have hu : u.val = 0 := by omega
    rw [Shape.rowMajor_val_two, Shape.rowMajor_val_one]
    show p.val = p.val * 1 + u.val
    rw [hu, Nat.mul_one, Nat.add_zero])

/-- An 8192 × 1 column spread over 256 positions per row: entry `(p, q)` is the column's entry `p`. -/
theorem spread_apply {α : Type} (v : S8192x1.Idx → α) (p : Fin 8192) (q : Fin 256) :
    broadcastTo S8192x256 v broadcasts_S8192x1_S8192x256 (ix2 p q) = v (ix2 p (0 : Fin 1)) := by
  refine broadcastTo_apply v broadcasts_S8192x1_S8192x256 (ix2 p q) (ix2 p (0 : Fin 1)) fun ax => ?_
  match ax with
  | ⟨0, _⟩ =>
    show p.val = if (8192 : Nat) = 1 then 0 else p.val
    rw [if_neg (by decide)]
  | ⟨1, _⟩ =>
    show 0 = if (1 : Nat) = 1 then 0 else q.val
    rw [if_pos rfl]

/-! ## The stored value at an entry -/

/-- THE BODY'S STORED VALUE at entry `(p, q)` of the block is the row-centred thresholded linear map of row `p` of the
    loaded block of `x`, with the loaded weight, at position `q`. -/
theorem payload_apply (wv : Vec Ideal S256x256 .f32) (xv : Vec Ideal S8192x256 .f32) (p : Fin 8192) (q : Fin 256) :
    k0_pay1 (F := Ideal) wv xv (ix2 p q) = Cert.RowCentred.centred (fun k => xv (ix2 p k)) wv q := by
  unfold k0_pay1
  dsimp only
  rw [subf_apply, spread_apply, divf_apply, column_apply, rowsum_apply]
  simp only [product_apply, indicator_apply]
  rfl

/-- The same at any index of the block. -/
theorem payload_at (wv : Vec Ideal S256x256 .f32) (xv : Vec Ideal S8192x256 .f32) (j : S8192x256.Idx) :
    k0_pay1 (F := Ideal) wv xv j = Cert.RowCentred.centred (fun k => xv (ix2 (j 0) k)) wv (j 1) := by
  obtain ⟨p, q, rfl⟩ : ∃ (p : Fin 8192) (q : Fin 256), j = ix2 p q := ⟨j 0, j 1, eq_ix2 j⟩
  exact payload_apply wv xv p q

end Cert.KernelIdeal.Rows

end
-- ==== Proof.KernelArray.lean ====
/-
  From the blocks to the whole output array.

  The grid has 16 points.  Point `t` reads rows `8192 t … 8192 t + 8191` of `x` (all 256 columns), the whole weight,
  and writes back rows `8192 t … 8192 t + 8191` of the output.  Because an output row depends only on the same row
  of `x` and on the whole weight, what point `t` writes back is exactly block `t` of ONE function of the two argument
  arrays — the row-centred thresholded linear map — and the 16 blocks cover every row (row `r` lies in the block of
  point `r / 8192`).  So after the run the output array is that function of the arguments.
-/
import proofs.«161540_j66194035966310_2_alg».proof.Proof.Gen.KernelIdeal.Value
import proofs.«161540_j66194035966310_2_alg».proof.Proof.BlockRows

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at grid point `t`, decided over the 16 points: `x`'s window and the output's sit at block row
    `t`, block column `0`; the weight's window stays at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the row-centred thresholded linear map of the argument arrays. -/
theorem flushed_eq (c : Dev nD) (t : Fin cfg0.N) :
    (dats m 0 c).flushed 2 t
      = ((cfg0.win 2).blk t).view.read (Elt Ideal) (Cert.RowCentred.whole (V m c main_arg0) (V m c main_arg1)) := by
  rw [Cert.KernelIdeal.Value.flushed2]
  unfold out0_2
  rw [View.canon_unit_zero zero_offsets]
  simp only [View.ld_unit_zero (S := S8192x256) zero_offsets, View.ld_unit_zero (S := S256x256) zero_offsets]
  obtain ⟨e00, e01, e10, e11, e20, e21⟩ := block_indices t
  refine funext fun (j : S8192x256.Idx) => ?_
  show k0_pay1 (iblk m c 1 t) (iblk m c 0 t) j
    = Cert.RowCentred.whole (V m c main_arg0) (V m c main_arg1) (((cfg0.win 2).blk t).view.emb j)
  refine (payload_at (iblk m c 1 t) (iblk m c 0 t) j).trans ?_
  -- the weight's block is the whole weight
  have hw : (iblk m c 1 t : S256x256.Idx → EReal) = V m c main_arg1 := by
    funext y
    show V m c main_arg1 (((cfg0.win 1).blk t).view.emb y) = V m c main_arg1 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  -- row `j 0` of `x`'s block is the row of `x` under the output's block entry
  have hx : (fun k : Fin 256 => (iblk m c 0 t : S8192x256.Idx → EReal) (ix2 (j 0) k))
      = fun k : Fin 256 => V m c main_arg0 (ix2 ((((cfg0.win 2).blk t).view.emb j) 0) k) := by
    funext k
    show V m c main_arg0 (((cfg0.win 0).blk t).view.emb (ix2 (j 0) k)) = _
    refine congrArg _ (funext fun a => Fin.ext ?_)
    match a with
    | ⟨0, _⟩ =>
      show win0_0.index t (0 : Fin 2) * 8192 + 1 * (j 0).val = win0_2.index t (0 : Fin 2) * 8192 + 1 * (j 0).val
      omega
    | ⟨1, _⟩ => show win0_0.index t (1 : Fin 2) * 256 + 1 * k.val = k.val; omega
  -- the output's block spans all 256 columns
  have hq : (j 1 : Fin 256) = (((cfg0.win 2).blk t).view.emb j) 1 := Fin.ext (by
    show (j 1).val = win0_2.index t (1 : Fin 2) * 256 + 1 * (j 1).val
    omega)
  exact Cert.RowCentred.centred_congr hx hw hq

/-- An index of the output array is in point `t`'s block iff each coordinate is in the block's range on its axis. -/
theorem mem_block (t : Fin cfg0.N) (i : S131072x256.Idx) :
    i ∈ ((cfg0.win 2).blk t).view.set ↔ ∀ a : Fin 2, win0_2.index t a * S8192x256.size a ≤ (i a).val
      ∧ (i a).val < win0_2.index t a * S8192x256.size a + S8192x256.size a := by
  show i ∈ ((View.whole main_v0).slice (win0_2.rect t)).set ↔ _
  rw [View.set_slice_whole, Rect.mem_set_unit]
  exact Iff.rfl

/-- Every index of the output array is in some point's block: row `r` is in the block of point `r / 8192`. -/
theorem covered (i : S131072x256.Idx) :
    ∃ t : Fin cfg0.N, (cfg0.win 2).flush t = true ∧ i ∈ ((cfg0.win 2).blk t).view.set := by
  have hi0 : (i 0).val < 131072 := (i 0).isLt
  have hi1 : (i 1).val < 256 := (i 1).isLt
  obtain ⟨t, ht⟩ : ∃ t : Fin cfg0.N, t.val = (i 0).val / 8192 :=
    ⟨⟨(i 0).val / 8192, lt_of_lt_of_eq (by omega : (i 0).val / 8192 < 16) N_0.symm⟩, rfl⟩
  obtain ⟨-, -, -, -, e20, e21⟩ := block_indices t
  refine ⟨t, flush0_2 t, ?_⟩
  rw [mem_block]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 256 ≤ (i 1).val ∧ (i 1).val < win0_2.index t (1 : Fin 2) * 256 + 256
    omega

/-- THE OUTPUT ARRAY after the run is the row-centred thresholded linear map of the argument arrays. -/
theorem final (c : Dev nD) :
    (dats m 0 c).arrAt 2 cfg0.N
      = Cert.RowCentred.whole (m ((c : Thread nD τ).loc main_arg0)) (m ((c : Thread nD τ).loc main_arg1)) :=
  (dats m 0 c).arrAt_eq_of_cover 2 (Cert.RowCentred.whole (V m c main_arg0) (V m c main_arg1))
    (fun t _ => flushed_eq m c t) covered

/-- The kernel's run re-posted: the output array at that function of the arguments, the arguments unchanged. -/
theorem run : θ_run defs (onTc (τ := τ) (main (F := Ideal))) ⟨m, fun _ => 0, ρ⟩ fun r => ∀ c : Dev nD,
      r.2.mem ((c : Thread nD τ).loc main_v0)
        = Cert.RowCentred.whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Rows

end
-- ==== Proof.ReferenceRows.lean ====
/-
  The reference program computes the row-centred thresholded linear map.

  Read one operation at a time, entry `(b, o)` of the reference's result is
  `y b o - (0 + ∑ o', y b o') / 256` with `y b o = ∑ k, x (b, k) * [w (o, k) > threshold]`: the comparison's one-bit
  answer converted to a float is `0` or `1`, the contraction runs over the second axis of both operands, the sum
  over the second axis of `y` starts from the zero word, and the quotient is broadcast back along the row.
  The zero it starts from is the extended real `0`, so it drops out.
-/
import proofs.«161540_j66194035966310_2_alg».proof.Proof.Gen.ReferenceIdeal.Read
import proofs.«161540_j66194035966310_2_alg».proof.Proof.RowCentred

noncomputable section

namespace Cert.ReferenceIdeal.Rows

open Cert.ReferenceIdeal Cert.ReferenceIdeal.Gen Cert.ReferenceIdeal.Read
open Idealize.ShloMosaic Idealize.ShloMosaic.ValueIdx

/-- Entry `(b, o)` of the reference's matrix product is the thresholded linear map of row `b` at `o`: the left factor
    runs along row `b` of `x`, the right factor along row `o` of the thresholded weight. -/
theorem product_apply (x0 : (⟨S131072x256, .f32⟩ : BufTy).Contents (Elt Ideal)) (x1 : (⟨S256x256, .f32⟩ : BufTy).Contents (Elt Ideal))
    (b : Fin 131072) (o : Fin 256) :
    val_main_v3 (F := Ideal) x0 x1 (ix2 b o) = Cert.RowCentred.lin (fun k => x0 (ix2 b k)) x1 o := by
  rw [val_main_v3_apply]
  unfold Cert.RowCentred.lin
  refine Finset.sum_congr rfl fun k _ => ?_
  have el : lidx_main_v3 (ix2 b o) k = ix2 b k :=
    funext fun a => Fin.ext (by match a with | ⟨0, _⟩ => rfl | ⟨1, _⟩ => rfl)
  have er : ridx_main_v3 (ix2 b o) k = ix2 o k :=
    funext fun a => Fin.ext (by match a with | ⟨0, _⟩ => rfl | ⟨1, _⟩ => rfl)
  rw [el, er, val_main_v2_apply, val_main_v1_apply, val_main_v0_apply, val_main_cst_apply]
  rfl

/-- The reference's result, index by index, is the row-centred thresholded linear map of its two arguments. -/
theorem result_eq (x0 : (⟨S131072x256, .f32⟩ : BufTy).Contents (Elt Ideal)) (x1 : (⟨S256x256, .f32⟩ : BufTy).Contents (Elt Ideal)) :
    val_main_v9 (F := Ideal) x0 x1 = Cert.RowCentred.whole x0 x1 := by
  funext j
  obtain ⟨b, o, rfl⟩ : ∃ (b : Fin 131072) (o : Fin 256), j = ix2 b o := ⟨j 0, j 1, eq_ix2 j⟩
  rw [Cert.RowCentred.whole_apply]
  unfold Cert.RowCentred.centred
  have e4 : ∀ k : Fin 256, idx_main_v4 (idx_main_v5 (idx_main_v8 (ix2 b o))) k = ix2 b k := fun k =>
    funext fun a => Fin.ext (by match a with | ⟨0, _⟩ => rfl | ⟨1, _⟩ => rfl)
  rw [val_main_v9_apply, val_main_v8_apply, val_main_v7_apply, val_main_v5_apply, val_main_v4_apply,
    val_main_v6_apply, val_main_cst_1_apply, val_main_cst_0_apply, product_apply]
  simp only [e4, product_apply]
  show _ - Ideal.div (Ideal.ofBits .f32 0x00000000#32 + _) _ = _
  rw [Ideal.ofBits_zero_f32, zero_add]
  rfl

end Cert.ReferenceIdeal.Rows

end
-- ==== Proof.lean ====
/-
  Equivalence, over the extended reals, of a tiled kernel and its array-level reference.

  Both programs take `x` (131072 × 256) and a weight `w` (256 × 256).  The weight is thresholded: an entry counts as `1`
  when it is strictly above the float nearest to 0.8 and as `0` otherwise.  Each row of `x` is multiplied by the
  transpose of the thresholded weight, `y b o = ∑ k, x b k * [w o k > threshold]`, and the row's mean is taken off:
  `y b o - (∑ o', y b o') / 256`.

  The kernel does this 8192 rows at a time over a grid of 16 points; the reference does it on the whole arrays.  An
  output row depends only on the same row of `x` and on the whole weight, so each block the kernel writes back is a
  block of the one whole-array function (`Cert.RowCentred.whole`), the 16 blocks cover the output, and the reference's
  operations, read one at a time, compose to that same function.  The two sides carry the same sums in the same
  arrangement, so no law of the extended reals beyond `0 + a = a` is used and the finiteness of the inputs is never
  opened.  The only difference of spelling is how the comparison's bit becomes a float: the kernel widens it to 32 bits
  and converts the signed integer, the reference converts the unsigned bit; both give `0` or `1`.

  The three frames are the generated ones (the reference's is its generated run with the result dropped), and the
  idealized kernel is the kernel's own text read on the extended reals: no operation of it was rewritten.
-/
import proofs.«161540_j66194035966310_2_alg».proof.Defs
import proofs.«161540_j66194035966310_2_alg».proof.Proof.Gen.Kernel
import proofs.«161540_j66194035966310_2_alg».proof.Proof.Gen.Kernel.Skeleton
import proofs.«161540_j66194035966310_2_alg».proof.Proof.Gen.Kernel.Launch
import proofs.«161540_j66194035966310_2_alg».proof.Proof.Gen.Kernel.Points
import proofs.«161540_j66194035966310_2_alg».proof.Proof.Gen.Kernel.Frame
import proofs.«161540_j66194035966310_2_alg».proof.Proof.Gen.KernelIdeal
import proofs.«161540_j66194035966310_2_alg».proof.Proof.Gen.KernelIdeal.Skeleton
import proofs.«161540_j66194035966310_2_alg».proof.Proof.Gen.KernelIdeal.Launch
import proofs.«161540_j66194035966310_2_alg».proof.Proof.Gen.KernelIdeal.Points
import proofs.«161540_j66194035966310_2_alg».proof.Proof.Gen.KernelIdeal.Frame
import proofs.«161540_j66194035966310_2_alg».proof.Proof.Gen.ReferenceIdeal
import proofs.«161540_j66194035966310_2_alg».proof.Proof.Gen.Pre_finite_inputs
import proofs.«161540_j66194035966310_2_alg».proof.Proof.Gen.KernelIdeal.Value
import proofs.«161540_j66194035966310_2_alg».proof.Proof.Gen.ReferenceIdeal.Run
import proofs.«161540_j66194035966310_2_alg».proof.Proof.Gen.ReferenceIdeal.Read
import proofs.«161540_j66194035966310_2_alg».proof.Proof.KernelArray
import proofs.«161540_j66194035966310_2_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs to completion without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text, no operation rewritten, so there is nothing to restate. -/
theorem preserves : Cert.preserves_Kernel_KernelIdeal := trivial

/-- From memories that agree on `x` and `w`, the kernel's output array and the reference's result are both the
    row-centred thresholded linear map of those arguments. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Rows.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
